-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S16384x1 : Shape := ⟨2, ![16384, 1]⟩
abbrev S1024x768 : Shape := ⟨2, ![1024, 768]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x1 : S_.BroadcastsInDim S16384x1 (![] : Fin 0 → Fin S16384x1.rank)
  reducesTo_S16384x1_S_d0_1 : S16384x1.ReducesTo [0, 1] S_
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512x1024 .f32) (main_arg12 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1024 .f32 := Host.absf main_arg11
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S512x1024 .f32) (main_arg8 : FVec F S512 .f32) (main_arg9 : FVec F S512x1024 .f32) (main_arg10 : FVec F S512 .f32) (main_arg11 : FVec F S512x1024 .f32) (main_arg12 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S1024 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512x1024 .f32) (main_arg12 : FVec F S512 .f32) (main_v13 : IVec S_ 1) (main_v16 : IVec S1024x768 1) : IVec S_ 1 :=
  let main_c_5 : IVec S_ 1 := constantI S_ 1 1#1
  let main_v17 : IVec S_ 1 := (fun x v => Host.reduce IntOp.andi x v reducesTo_S1024x768_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x256 .f32) (main_arg1 : FVec F S16384x512 .f32) (main_arg2 : FVec F S16384x1 .f32) (main_arg3 : FVec F S1024x768 .f32) (main_arg4 : FVec F S1024 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512x1024 .f32) (main_arg12 : FVec F S512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S1024x768 .f32 := Host.absf main_arg3
  let main_cst_4 : FVec F S_ .f32 := constant S_ .f32 0x7F800000#32
  let main_v15 : FVec F S1024x768 .f32 := broadcastInDim S1024x768 ![] bcast_S_S1024x768 main_cst_4
  let main_v16 : IVec S1024x768 1 := cmpf .olt main_v14 main_v15
  fn_part1 (F := F) main_arg4 main_arg5 main_arg6 main_arg7 main_arg8 main_arg9 main_arg10 main_arg11 main_arg12 main_v13 main_v16
-- ==== Kernel.lean ====
abbrev S16384x256 : Shape := ⟨2, ![16384, 256]⟩
abbrev S16384x512 : Shape := ⟨2, ![16384, 512]⟩
abbrev S16384x1 : Shape := ⟨2, ![16384, 1]⟩
abbrev S1024x768 : Shape := ⟨2, ![1024, 768]⟩
abbrev S1024 : Shape := ⟨1, ![1024]⟩
abbrev S512x1024 : Shape := ⟨2, ![512, 1024]⟩
abbrev S512 : Shape := ⟨1, ![512]⟩
abbrev S1024x256 : Shape := ⟨2, ![1024, 256]⟩
abbrev S256x1024 : Shape := ⟨2, ![256, 1024]⟩
abbrev S1024x512 : Shape := ⟨2, ![1024, 512]⟩
abbrev S1024x2048 : Shape := ⟨2, ![1024, 2048]⟩
abbrev S1x512 : Shape := ⟨2, ![1, 512]⟩
abbrev S1x2048 : Shape := ⟨2, ![1, 2048]⟩
abbrev S1x1024 : Shape := ⟨2, ![1, 1024]⟩
abbrev S512x256 : Shape := ⟨2, ![512, 256]⟩
abbrev S512x512 : Shape := ⟨2, ![512, 512]⟩
abbrev S512x1 : Shape := ⟨2, ![512, 1]⟩
abbrev S512x2048 : Shape := ⟨2, ![512, 2048]⟩

abbrev nBuf : Space → Nat
  | .hbm => 32
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x1, .f32⟩
  | .hbm, ⟨3, _⟩ => ⟨S1024x768, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x1024, .f32⟩
  | .hbm, ⟨12, _⟩ => ⟨S512, .f32⟩
  | .hbm, ⟨13, _⟩ => ⟨S1024x256, .f32⟩
  | .hbm, ⟨14, _⟩ => ⟨S256x1024, .f32⟩
  | .hbm, ⟨15, _⟩ => ⟨S256x1024, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x2048, .f32⟩
  | .hbm, ⟨24, _⟩ => ⟨S1024x2048, .bf16⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x2048, .f32⟩
  | .hbm, ⟨30, _⟩ => ⟨S1x1024, .f32⟩
  | .hbm, ⟨31, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S256x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S512x512, .f32⟩
  | .local _ .vmem, ⟨12, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1024x768_S1024x256_0_0 : S1024x768.Slices ![0, 0] S1024x256
  transposes_S1024x256_S256x1024_1_0 : S1024x256.Transposes [1, 0] S256x1024
  bitsLt_bf16_f32 : FTy.bits .bf16 < FTy.bits .f32
  slices_S1024x768_S1024x512_0_256 : S1024x768.Slices ![0, 256] S1024x512
  transposes_S1024x512_S512x1024_1_0 : S1024x512.Transposes [1, 0] S512x1024
  transposes_S512x1024_S1024x512_1_0 : S512x1024.Transposes [1, 0] S1024x512
  concatenates_S1024x512_S1024x512_S1024x512_S1024x512_S1024x2048_d1 : Shape.Concatenates [S1024x512, S1024x512, S1024x512, S1024x512] S1024x2048 1
  shapeCasts_S512_S1x512 : S512.ShapeCasts S1x512
  concatenates_S1x512_S1x512_S1x512_S1x512_S1x2048_d1 : Shape.Concatenates [S1x512, S1x512, S1x512, S1x512] S1x2048 1
  shapeCasts_S1024_S1x1024 : S1024.ShapeCasts S1x1024
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  broadcasts_S512x1_S512x512 : S512x1.Broadcasts S512x512
  dot_S512x256_S256x1024_S512x1024_1_0_0_1_n_n_wf : DotDims.WF S512x256 S256x1024 S512x1024 [1] [0] [0] [1] [] []
  dot_S512x512_S512x1024_S512x1024_1_0_0_1_n_n_wf : DotDims.WF S512x512 S512x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S16384x1 : Shape := ⟨2, ![16384, 1]⟩
abbrev S1024x768 : Shape := ⟨2, ![1024, 768]⟩
abbrev S1024 : Shape := ⟨1, ![1024]⟩
abbrev S512x1024 : Shape := ⟨2, ![512, 1024]⟩
abbrev S512 : Shape := ⟨1, ![512]⟩
abbrev S16384x768 : Shape := ⟨2, ![16384, 768]⟩
abbrev S768x1024 : Shape := ⟨2, ![768, 1024]⟩
abbrev S16384x1024 : Shape := ⟨2, ![16384, 1024]⟩
abbrev S1x1024 : Shape := ⟨2, ![1, 1024]⟩
abbrev S_ : Shape := ⟨0, ![]⟩
abbrev S1024x512 : Shape := ⟨2, ![1024, 512]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x1, .f32⟩
  | .hbm, ⟨3, _⟩ => ⟨S1024x768, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x1024, .f32⟩
  | .hbm, ⟨12, _⟩ => ⟨S512, .f32⟩
  | .hbm, ⟨13, _⟩ => ⟨S16384x768, .f32⟩
  | .hbm, ⟨14, _⟩ => ⟨S768x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1024x512, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1024x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S1024x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S1024x512, .f32⟩
  | .hbm, ⟨44, _⟩ => ⟨S16384x512, .f32⟩
  | .hbm, ⟨45, _⟩ => ⟨S1x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  concatenates_S16384x256_S16384x512_S16384x768_d1 : Shape.Concatenates [S16384x256, S16384x512] S16384x768 1
  transposes_S1024x768_S768x1024_1_0 : S1024x768.Transposes [1, 0] S768x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x768_S768x1024_S16384x1024_1_0_0_1_n_n_wf : DotDims.WF S16384x768 S768x1024 S16384x1024 [1] [0] [0] [1] [] []
  dot_S16384x1024_S1024x512_S16384x512_1_0_0_1_n_n_wf : DotDims.WF S16384x1024 S1024x512 S16384x512 [1] [0] [0] [1] [] []

variable [Facts₀]

def dot_S16384x768_S768x1024_S16384x1024_1_0_0_1_n_n : DotDims S16384x768 S768x1024 S16384x1024 where
  lhsContracting := [1]
  rhsContracting := [0]
  lhsNonContracting := [0]
  rhsNonContracting := [1]
  lhsBatch := []
  rhsBatch := []
  wf := dot_S16384x768_S768x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.FrameBits.lean ====
/- The frame of the kernel program: from any launch memory with zero counters, every weakly fair execution of
   @main on the TensorCores ends and none faults; at each of the 32 grid points the kernel body reads each input
   window's block in place and writes the output window's 512x512 block whole, as the closed form `out0_8` of the
   eight input blocks; and the thirteen argument arrays end as launched. The host operations before the region
   write only their own results, so the region finds every argument array as launched. -/
import proofs.«121057_j5669356836202_2_alg».proof.Proof.Gen.Kernel.Launch
import proofs.«121057_j5669356836202_2_alg».proof.Proof.Gen.Kernel.Skeleton
import proofs.«121057_j5669356836202_2_alg».proof.Proof.Gen.Kernel.Points
import Idealize.ShloMosaic.Lib.Pipeline.FrameBody
import Idealize.ShloMosaic.Lib.Ring
import Idealize.ShloMosaic.Lib.Tactic

-- membership in a rectangle of large extents is checked by a structural recursion, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the host operations, in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0` (each writes its own result only): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1` (each writes its own result only): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2` (each writes its own result only): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3` (each writes its own result only): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4` (each writes its own result only): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5` (each writes its own result only): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6` (each writes its own result only): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7` (each writes its own result only): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8` (each writes its own result only): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9` (each writes its own result only): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10` (each writes its own result only): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11` (each writes its own result only): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12` (each writes its own result only): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at the
    argument arrays — an array a window stages through the window's array, an array no window stages through the
    post's clause for the unscoped rest, each then by `V_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses -/

abbrev r0_0 : Rect S512x256 := Rect.unit (s := S512x256) ![0, 0] S512x256.size inb_S512x256_S512x256_0_0
abbrev r0_1 : Rect S512x512 := Rect.unit (s := S512x512) ![0, 0] S512x512.size inb_S512x512_S512x512_0_0
abbrev r0_2 : Rect S512x1 := Rect.unit (s := S512x1) ![0, 0] S512x1.size inb_S512x1_S512x1_0_0
abbrev r0_3 : Rect S256x1024 := Rect.unit (s := S256x1024) ![0, 0] S256x1024.size inb_S256x1024_S256x1024_0_0
abbrev r0_4 : Rect S512x1024 := Rect.unit (s := S512x1024) ![0, 0] S512x1024.size inb_S512x1024_S512x1024_0_0
abbrev r0_5 : Rect S1x1024 := Rect.unit (s := S1x1024) ![0, 0] S1x1024.size inb_S1x1024_S1x1024_0_0
abbrev r0_6 : Rect S1024x2048 := Rect.unit (s := S1024x2048) ![0, 0] S1024x2048.size inb_S1024x2048_S1024x2048_0_0
abbrev r0_7 : Rect S1x2048 := Rect.unit (s := S1x2048) ![0, 0] S1x2048.size inb_S1x2048_S1x2048_0_0
abbrev r0_8 : Rect S512x512 := Rect.unit (s := S512x512) ![0, 0] S512x512.size inb_S512x512_S512x512_0_0

/-! ## What the body leaves in the output window's buffer -/

/-- Window 8's staging buffer after the body, from the input windows' blocks: its one store, through the whole
    rectangle, of the payload over the eight blocks loaded whole. -/
def out0_8 (x0 : Vec F S512x256 .f32) (x1 : Vec F S512x512 .f32) (x2 : Vec F S512x1 .f32) (x3 : Vec F S256x1024 .bf16) (x4 : Vec F S512x1024 .bf16) (x5 : Vec F S1x1024 .f32) (x6 : Vec F S1024x2048 .bf16) (x7 : Vec F S1x2048 .f32) : Vec F S512x512 .f32 :=
  View.canon [⟨r0_8, k0_pay1 (k0_pay3 (View.ld x0 r0_0) (View.ld x1 r0_1) (View.ld x3 r0_3) (View.ld x4 r0_4) (View.ld x5 r0_5) (View.ld x6 r0_6) (View.ld x7 r0_7)) (k0_pay4 (View.ld x0 r0_0) (View.ld x1 r0_1) (View.ld x3 r0_3) (View.ld x4 r0_4) (View.ld x5 r0_5) (View.ld x6 r0_6) (View.ld x7 r0_7)) (k0_pay5 (View.ld x0 r0_0) (View.ld x1 r0_1) (View.ld x2 r0_2) (View.ld x3 r0_3) (View.ld x4 r0_4) (View.ld x5 r0_5) (View.ld x6 r0_6) (View.ld x7 r0_7))⟩]

/-- The store tiles the buffer (checked by evaluation), so it covers it. -/
theorem cover0_8 (p0 : Vec F S512x512 .f32) (y : S512x512.Idx) :
    ∃ pc ∈ ([⟨r0_8, p0⟩] : List (View.Piece (Elt F) S512x512 .f32)), y ∈ pc.1.set :=
  View.cover_of_tiled [⟨r0_8, p0⟩] S512x512.size (by rfl) y

/-! ## The body's triple -/

set_option maxHeartbeats 4000000 in
/-- The kernel body on whole staging memrefs, the inputs' at read contents `xW` and the output's at anything, runs to
    the continuation holding the inputs' as they were and the output's at `out0_8` of the inputs': eight whole loads,
    a load of the output buffer whose value is unused, and one store through the whole rectangle, which covers the buffer. -/
theorem sound_kernel (c : Dev nD) (E : Set ℕ) (i : grid0.Coords) (arg1 : Memref sig .tc .vmem S512x256 .f32) (harg1 : arg1.IsWhole) (arg2 : Memref sig .tc .vmem S512x512 .f32) (harg2 : arg2.IsWhole) (arg3 : Memref sig .tc .vmem S512x1 .f32) (harg3 : arg3.IsWhole) (arg4 : Memref sig .tc .vmem S256x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S512x512 .f32) (harg9 : arg9.IsWhole)
    (x0 : Vec F S512x256 .f32) (x1 : Vec F S512x512 .f32) (x2 : Vec F S512x1 .f32) (x3 : Vec F S256x1024 .bf16) (x4 : Vec F S512x1024 .bf16) (x5 : Vec F S1x1024 .f32) (x6 : Vec F S1024x2048 .bf16) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__cfc_kernel i arg1 harg1 arg2 harg2 arg3 harg3 arg4 harg4 arg5 harg5 arg6 harg6 arg7 harg7 arg8 harg8 arg9 harg9) K := by
  simp only [cc0__cfc_kernel_eq_skeleton]; unfold cc0__cfc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the one pipeline on core `c`: the arrays as the region finds them (`V`); after the body at
    point `t` each input's buffer at its block and the output's at `out0_8` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data computes and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution of @main ends without fault with the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.FrameIdeal.lean ====
/- The frame of the kernel program: from any launch memory with zero counters, every weakly fair execution of
   @main on the TensorCores ends and none faults; at each of the 32 grid points the kernel body reads each input
   window's block in place and writes the output window's 512x512 block whole, as the closed form `out0_8` of the
   eight input blocks; and the thirteen argument arrays end as launched. The host operations before the region
   write only their own results, so the region finds every argument array as launched. -/
import proofs.«121057_j5669356836202_2_alg».proof.Proof.Gen.KernelIdeal.Launch
import proofs.«121057_j5669356836202_2_alg».proof.Proof.Gen.KernelIdeal.Skeleton
import proofs.«121057_j5669356836202_2_alg».proof.Proof.Gen.KernelIdeal.Points
import Idealize.ShloMosaic.Lib.Pipeline.FrameBody
import Idealize.ShloMosaic.Lib.Ring
import Idealize.ShloMosaic.Lib.Tactic

-- membership in a rectangle of large extents is checked by a structural recursion, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the host operations, in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0` (each writes its own result only): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1` (each writes its own result only): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2` (each writes its own result only): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3` (each writes its own result only): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4` (each writes its own result only): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5` (each writes its own result only): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6` (each writes its own result only): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7` (each writes its own result only): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8` (each writes its own result only): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9` (each writes its own result only): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10` (each writes its own result only): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg11` (each writes its own result only): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg12` (each writes its own result only): the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at the
    argument arrays — an array a window stages through the window's array, an array no window stages through the
    post's clause for the unscoped rest, each then by `V_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses -/

abbrev r0_0 : Rect S512x256 := Rect.unit (s := S512x256) ![0, 0] S512x256.size inb_S512x256_S512x256_0_0
abbrev r0_1 : Rect S512x512 := Rect.unit (s := S512x512) ![0, 0] S512x512.size inb_S512x512_S512x512_0_0
abbrev r0_2 : Rect S512x1 := Rect.unit (s := S512x1) ![0, 0] S512x1.size inb_S512x1_S512x1_0_0
abbrev r0_3 : Rect S256x1024 := Rect.unit (s := S256x1024) ![0, 0] S256x1024.size inb_S256x1024_S256x1024_0_0
abbrev r0_4 : Rect S512x1024 := Rect.unit (s := S512x1024) ![0, 0] S512x1024.size inb_S512x1024_S512x1024_0_0
abbrev r0_5 : Rect S1x1024 := Rect.unit (s := S1x1024) ![0, 0] S1x1024.size inb_S1x1024_S1x1024_0_0
abbrev r0_6 : Rect S1024x2048 := Rect.unit (s := S1024x2048) ![0, 0] S1024x2048.size inb_S1024x2048_S1024x2048_0_0
abbrev r0_7 : Rect S1x2048 := Rect.unit (s := S1x2048) ![0, 0] S1x2048.size inb_S1x2048_S1x2048_0_0
abbrev r0_8 : Rect S512x512 := Rect.unit (s := S512x512) ![0, 0] S512x512.size inb_S512x512_S512x512_0_0

/-! ## What the body leaves in the output window's buffer -/

/-- Window 8's staging buffer after the body, from the input windows' blocks: its one store, through the whole
    rectangle, of the payload over the eight blocks loaded whole. -/
def out0_8 (x0 : Vec F S512x256 .f32) (x1 : Vec F S512x512 .f32) (x2 : Vec F S512x1 .f32) (x3 : Vec F S256x1024 .bf16) (x4 : Vec F S512x1024 .bf16) (x5 : Vec F S1x1024 .f32) (x6 : Vec F S1024x2048 .bf16) (x7 : Vec F S1x2048 .f32) : Vec F S512x512 .f32 :=
  View.canon [⟨r0_8, k0_pay1 (k0_pay3 (View.ld x0 r0_0) (View.ld x1 r0_1) (View.ld x3 r0_3) (View.ld x4 r0_4) (View.ld x5 r0_5) (View.ld x6 r0_6) (View.ld x7 r0_7)) (k0_pay4 (View.ld x0 r0_0) (View.ld x1 r0_1) (View.ld x3 r0_3) (View.ld x4 r0_4) (View.ld x5 r0_5) (View.ld x6 r0_6) (View.ld x7 r0_7)) (k0_pay5 (View.ld x0 r0_0) (View.ld x1 r0_1) (View.ld x2 r0_2) (View.ld x3 r0_3) (View.ld x4 r0_4) (View.ld x5 r0_5) (View.ld x6 r0_6) (View.ld x7 r0_7))⟩]

/-- The store tiles the buffer (checked by evaluation), so it covers it. -/
theorem cover0_8 (p0 : Vec F S512x512 .f32) (y : S512x512.Idx) :
    ∃ pc ∈ ([⟨r0_8, p0⟩] : List (View.Piece (Elt F) S512x512 .f32)), y ∈ pc.1.set :=
  View.cover_of_tiled [⟨r0_8, p0⟩] S512x512.size (by rfl) y

/-! ## The body's triple -/

set_option maxHeartbeats 4000000 in
/-- The kernel body on whole staging memrefs, the inputs' at read contents `xW` and the output's at anything, runs to
    the continuation holding the inputs' as they were and the output's at `out0_8` of the inputs': eight whole loads,
    a load of the output buffer whose value is unused, and one store through the whole rectangle, which covers the buffer. -/
theorem sound_kernel (c : Dev nD) (E : Set ℕ) (i : grid0.Coords) (arg1 : Memref sig .tc .vmem S512x256 .f32) (harg1 : arg1.IsWhole) (arg2 : Memref sig .tc .vmem S512x512 .f32) (harg2 : arg2.IsWhole) (arg3 : Memref sig .tc .vmem S512x1 .f32) (harg3 : arg3.IsWhole) (arg4 : Memref sig .tc .vmem S256x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S512x512 .f32) (harg9 : arg9.IsWhole)
    (x0 : Vec F S512x256 .f32) (x1 : Vec F S512x512 .f32) (x2 : Vec F S512x1 .f32) (x3 : Vec F S256x1024 .bf16) (x4 : Vec F S512x1024 .bf16) (x5 : Vec F S1x1024 .f32) (x6 : Vec F S1024x2048 .bf16) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__cfc_kernel i arg1 harg1 arg2 harg2 arg3 harg3 arg4 harg4 arg5 harg5 arg6 harg6 arg7 harg7 arg8 harg8 arg9 harg9) K := by
  simp only [cc0__cfc_kernel_eq_skeleton]; unfold cc0__cfc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the one pipeline on core `c`: the arrays as the region finds them (`V`); after the body at
    point `t` each input's buffer at its block and the output's at `out0_8` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data computes and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution of @main ends without fault with the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.CfcSpec.lean ====
/-
  The function both programs compute, one row at a time.

  A row of the result depends on one row `x` of the 256 input features, one row `y` of the 512 hidden features and
  one time step `s`, and on the weights. The hidden layer is
      h k = 1.7159 · tanh (0.666 · (∑ j < 256, x j · Wb k j  +  ∑ j < 512, y j · Wb k (256 + j)  +  bb k)),
  a head with weights `W`, `b` is  u e = ∑ k < 1024, h k · W e k + b e,  and entry `e` of the row is
      tanh (u₁ e) · (1 − σ) + σ · tanh (u₂ e),    σ = logistic (u_a e · s + u_t e).
  The two decimal constants and 1.0 are kept as the binary words the programs print: both sides carry the same words,
  so their values are never needed. Everything is on the extended reals; only commutativity and associativity of
  finite sums are used, so no entry has to be finite.

  The one law between the two arrangements of the hidden layer: a sum over 768 = 256 + 512 terms is the sum of its
  first 256 terms plus the sum of its last 512.
-/
import Idealize.ShloMosaic.PureOps.Ideal
import Idealize.ShloMosaic.Lib.ValueIdx
import Idealize.ShloMosaic.Lib.IdealHost

noncomputable section

open scoped BigOperators

namespace Cert.Proof.Cfc

open Idealize.ShloMosaic Idealize.ShloMosaic.ValueIdx

/-- The inner scale 0.666, as its binary word's value. -/
abbrev cIn : EReal := Ideal.ofBits .f32 0x3F2A7EFA#32
/-- The outer scale 1.7159, as its binary word's value. -/
abbrev cOut : EReal := Ideal.ofBits .f32 0x3FDBA29C#32
/-- The constant 1.0, as its binary word's value. -/
abbrev cOne : EReal := Ideal.ofBits .f32 0x3F800000#32

/-- Column `j` of the first 256 columns of a 768-column matrix. -/
abbrev colL (j : Fin 256) : Fin 768 := ⟨j.val, Nat.lt_trans j.isLt (by decide)⟩
/-- Column `256 + j` of a 768-column matrix, `j < 512`. -/
abbrev colR (j : Fin 512) : Fin 768 := ⟨256 + j.val, by have := j.isLt; omega⟩

/-- Unit `k` of the hidden layer, from a row of input features and a row of hidden features. -/
def hiddenUnit (x : Fin 256 → EReal) (y : Fin 512 → EReal) (Wb : Fin 1024 → Fin 768 → EReal) (bb : Fin 1024 → EReal)
    (k : Fin 1024) : EReal :=
  cOut * Ideal.tanh (cIn * ((∑ j : Fin 256, x j * Wb k (colL j)) + (∑ j : Fin 512, y j * Wb k (colR j)) + bb k))

/-- Entry `e` of a head over the hidden layer `h`. -/
def head (h : Fin 1024 → EReal) (W : Fin 512 → Fin 1024 → EReal) (b : Fin 512 → EReal) (e : Fin 512) : EReal :=
  (∑ k : Fin 1024, h k * W e k) + b e

/-- The gate: the two heads' outputs mixed by the logistic of the time heads. -/
def mix (u1 u2 ua ut s : EReal) : EReal :=
  Ideal.tanh u1 * (cOne - Ideal.logistic (ua * s + ut)) + Ideal.logistic (ua * s + ut) * Ideal.tanh u2

/-- Entry `e` of a result row. -/
def rowCell (x : Fin 256 → EReal) (y : Fin 512 → EReal) (s : EReal)
    (Wb : Fin 1024 → Fin 768 → EReal) (bb : Fin 1024 → EReal)
    (W1 : Fin 512 → Fin 1024 → EReal) (b1 : Fin 512 → EReal) (W2 : Fin 512 → Fin 1024 → EReal) (b2 : Fin 512 → EReal)
    (Wa : Fin 512 → Fin 1024 → EReal) (ba : Fin 512 → EReal) (Wt : Fin 512 → Fin 1024 → EReal) (bt : Fin 512 → EReal)
    (e : Fin 512) : EReal :=
  mix (head (hiddenUnit x y Wb bb) W1 b1 e) (head (hiddenUnit x y Wb bb) W2 b2 e)
    (head (hiddenUnit x y Wb bb) Wa ba e) (head (hiddenUnit x y Wb bb) Wt bt e) s

/-- A sum of 768 terms is the sum of its first 256 plus the sum of its last 512. -/
theorem sum_768_split (f : Fin 768 → EReal) :
    (∑ j : Fin 768, f j) = (∑ j : Fin 256, f (colL j)) + (∑ j : Fin 512, f (colR j)) := by
  have h := Fin.sum_univ_add (a := 256) (b := 512) (fun i : Fin (256 + 512) => f i)
  exact h

/-- The logistic spelt with the word of 1.0, `1 / (1 + e⁻ˣ)`, is the logistic: that word's value is 1. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

/-- A matrix index is the pair of its coordinates' values. -/
theorem idx2_eq {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- A vector index is its coordinate's value. -/
theorem idx1_eq {n : Nat} (f : (⟨1, ![n]⟩ : Shape).Idx) (a : Fin n) (h0 : (f 0).val = a.val) : f = ix1 a := by
  funext d
  match d with
  | ⟨0, _⟩ => exact Fin.ext h0

/-- The whole result array: row `i 0`, entry `i 1`, from the thirteen argument arrays. -/
def G (a0 : (⟨2, ![16384, 256]⟩ : Shape).Idx → EReal) (a1 : (⟨2, ![16384, 512]⟩ : Shape).Idx → EReal)
    (a2 : (⟨2, ![16384, 1]⟩ : Shape).Idx → EReal) (a3 : (⟨2, ![1024, 768]⟩ : Shape).Idx → EReal)
    (a4 : (⟨1, ![1024]⟩ : Shape).Idx → EReal)
    (a5 : (⟨2, ![512, 1024]⟩ : Shape).Idx → EReal) (a6 : (⟨1, ![512]⟩ : Shape).Idx → EReal)
    (a7 : (⟨2, ![512, 1024]⟩ : Shape).Idx → EReal) (a8 : (⟨1, ![512]⟩ : Shape).Idx → EReal)
    (a9 : (⟨2, ![512, 1024]⟩ : Shape).Idx → EReal) (a10 : (⟨1, ![512]⟩ : Shape).Idx → EReal)
    (a11 : (⟨2, ![512, 1024]⟩ : Shape).Idx → EReal) (a12 : (⟨1, ![512]⟩ : Shape).Idx → EReal) :
    (⟨2, ![16384, 512]⟩ : Shape).Idx → EReal := fun i =>
  rowCell (fun j => a0 (ix2 (i 0) j)) (fun j => a1 (ix2 (i 0) j)) (a2 (ix2 (i 0) (0 : Fin 1)))
    (fun k j => a3 (ix2 k j)) (fun k => a4 (ix1 k))
    (fun e k => a5 (ix2 e k)) (fun e => a6 (ix1 e)) (fun e k => a7 (ix2 e k)) (fun e => a8 (ix1 e))
    (fun e k => a9 (ix2 e k)) (fun e => a10 (ix1 e)) (fun e k => a11 (ix2 e k)) (fun e => a12 (ix1 e)) (i 1)

end Cert.Proof.Cfc

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.KernelPayload.lean ====
/-
  What the kernel stores at one entry of a block.

  At a grid point the body holds eight blocks: 512 rows `x0` of input features, 512 rows `x1` of hidden features, a
  column `x2` of 512 time steps, and — the same at every point — the input part `x3` (256 × 1024) and the hidden part
  `x4` (512 × 1024) of the transposed backbone weights, the backbone bias `x5` as one row, the four heads' transposed
  weights side by side `x6` (1024 × 2048) and their biases side by side `x7` as one row. Read at row `p`, entry `e`,
  the stored value is the gate `mix` of the four heads at columns `e`, `512 + e`, `1024 + e`, `1536 + e` of the fused
  product: each matrix product is a finite sum (the accumulator is the zero word), each slice shifts a column, each
  broadcast repeats a row or a column, and rounding to bf16 is the identity on the extended reals.
-/
import proofs.«121057_j5669356836202_2_alg».proof.Proof.Gen.KernelIdeal.Skeleton
import proofs.«121057_j5669356836202_2_alg».proof.Proof.CfcSpec
import proofs.«121057_j5669356836202_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Proof.Cfc

/-- A column `[a, 1]` repeated along the rows' entries to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The input part of the backbone product at `(p, k)`. -/
theorem matmul_in_at (X : FVec Ideal S512x256 .bf16) (W : FVec Ideal S256x1024 .bf16) (p : Fin 512) (k : Fin 1024) :
    matmul dot_S512x256_S256x1024_S512x1024_1_0_0_1_n_n none X W (constant S512x1024 .f32 0x00000000#32) (ix2 p k)
      = ∑ j : Fin 256, X (ix2 p j) * W (ix2 j k) :=
  Cert.Proof.PlainDot.matmul_plain_zero (M := 512) (K := 256) (N := 1024) none X W (ix2 p k)

/-- The hidden part of the backbone product at `(p, k)`. -/
theorem matmul_hid_at (X : FVec Ideal S512x512 .bf16) (W : FVec Ideal S512x1024 .bf16) (p : Fin 512) (k : Fin 1024) :
    matmul dot_S512x512_S512x1024_S512x1024_1_0_0_1_n_n none X W (constant S512x1024 .f32 0x00000000#32) (ix2 p k)
      = ∑ j : Fin 512, X (ix2 p j) * W (ix2 j k) :=
  Cert.Proof.PlainDot.matmul_plain_zero (M := 512) (K := 512) (N := 1024) none X W (ix2 p k)

/-- The fused heads' product at `(p, c)`. -/
theorem matmul_heads_at (X : FVec Ideal S512x1024 .bf16) (W : FVec Ideal S1024x2048 .bf16) (p : Fin 512) (c : Fin 2048) :
    matmul dot_S512x1024_S1024x2048_S512x2048_1_0_0_1_n_n none X W (constant S512x2048 .f32 0x00000000#32) (ix2 p c)
      = ∑ k : Fin 1024, X (ix2 p k) * W (ix2 k c) :=
  Cert.Proof.PlainDot.matmul_plain_zero (M := 512) (K := 1024) (N := 2048) none X W (ix2 p c)

/-- Unit `k` of the hidden layer on block row `p`, from the blocks. -/
def hidB (x0 : FVec Ideal S512x256 .f32) (x1 : FVec Ideal S512x512 .f32) (x3 : FVec Ideal S256x1024 .bf16)
    (x4 : FVec Ideal S512x1024 .bf16) (x5 : FVec Ideal S1x1024 .f32) (p : Fin 512) (k : Fin 1024) : EReal :=
  cOut * Ideal.tanh (cIn * ((∑ j : Fin 256, x0 (ix2 p j) * x3 (ix2 j k)) + (∑ j : Fin 512, x1 (ix2 p j) * x4 (ix2 j k))
    + x5 (ix2 (0 : Fin 1) k)))

/-- Column `c` of the fused heads on block row `p`, from the blocks. -/
def headB (x0 : FVec Ideal S512x256 .f32) (x1 : FVec Ideal S512x512 .f32) (x3 : FVec Ideal S256x1024 .bf16)
    (x4 : FVec Ideal S512x1024 .bf16) (x5 : FVec Ideal S1x1024 .f32) (x6 : FVec Ideal S1024x2048 .bf16)
    (x7 : FVec Ideal S1x2048 .f32) (p : Fin 512) (c : Fin 2048) : EReal :=
  (∑ k : Fin 1024, hidB x0 x1 x3 x4 x5 p k * x6 (ix2 k c)) + x7 (ix2 (0 : Fin 1) c)

/-- The fused heads' pre-activation, the value the three slices are cut from, at `(p, c)`. -/
theorem pay2_at (x0 : FVec Ideal S512x256 .f32) (x1 : FVec Ideal S512x512 .f32) (x3 : FVec Ideal S256x1024 .bf16)
    (x4 : FVec Ideal S512x1024 .bf16) (x5 : FVec Ideal S1x1024 .f32) (x6 : FVec Ideal S1024x2048 .bf16)
    (x7 : FVec Ideal S1x2048 .f32) (p : Fin 512) (c : Fin 2048) :
    k0_pay2 (F := Ideal) x0 x1 x3 x4 x5 x6 x7 (ix2 p c) = headB x0 x1 x3 x4 x5 x6 x7 p c := by
  unfold k0_pay2 headB hidB
  simp only [ValueIdx.addf_apply, ValueIdx.mulf_apply, ValueIdx.broadcast_apply, ValueIdx.truncf_apply,
    matmul_in_at, matmul_hid_at, matmul_heads_at, shapeCast_self, broadcastTo_1b_ab_apply, tanh,
    Ideal.tanh_def, Ideal.ofBits_def]

/-- Column `e` of head 0 inside the fused product's 2048 columns. -/
abbrev col0 (e : Fin 512) : Fin 2048 := ⟨e.val, by have := e.isLt; omega⟩
/-- Column `512 + e`: head 1. -/
abbrev col1 (e : Fin 512) : Fin 2048 := ⟨512 + e.val, by have := e.isLt; omega⟩
/-- Column `1024 + e`: head 2 (the time scale). -/
abbrev col2 (e : Fin 512) : Fin 2048 := ⟨1024 + e.val, by have := e.isLt; omega⟩
/-- Column `1536 + e`: head 3 (the time offset). -/
abbrev col3 (e : Fin 512) : Fin 2048 := ⟨1536 + e.val, by have := e.isLt; omega⟩

section
variable (x0 : FVec Ideal S512x256 .f32) (x1 : FVec Ideal S512x512 .f32) (x2 : FVec Ideal S512x1 .f32)
  (x3 : FVec Ideal S256x1024 .bf16) (x4 : FVec Ideal S512x1024 .bf16) (x5 : FVec Ideal S1x1024 .f32)
  (x6 : FVec Ideal S1024x2048 .bf16) (x7 : FVec Ideal S1x2048 .f32) (p : Fin 512) (e : Fin 512)

/-- The first head's output: tanh of the first 512 columns. -/
theorem pay3_at : k0_pay3 (F := Ideal) x0 x1 x3 x4 x5 x6 x7 (ix2 p e)
    = Ideal.tanh (headB x0 x1 x3 x4 x5 x6 x7 p (col0 e)) := by
  unfold k0_pay3
  simp only [tanh, slice2_axis1_apply 0 _ _ p e (col0 e) (Nat.zero_add _).symm, pay2_at, Ideal.tanh_def]

/-- The second head's output: tanh of columns 512 … 1023. -/
theorem pay4_at : k0_pay4 (F := Ideal) x0 x1 x3 x4 x5 x6 x7 (ix2 p e)
    = Ideal.tanh (headB x0 x1 x3 x4 x5 x6 x7 p (col1 e)) := by
  unfold k0_pay4
  simp only [tanh, slice2_axis1_eq, pay2_at, Ideal.tanh_def]

/-- The gate's argument: the time scale head times the row's time step plus the time offset head. -/
theorem pay5_at : k0_pay5 (F := Ideal) x0 x1 x2 x3 x4 x5 x6 x7 (ix2 p e)
    = headB x0 x1 x3 x4 x5 x6 x7 p (col2 e) * x2 (ix2 p (0 : Fin 1)) + headB x0 x1 x3 x4 x5 x6 x7 p (col3 e) := by
  unfold k0_pay5
  simp only [ValueIdx.addf_apply, ValueIdx.mulf_apply, slice2_axis1_eq, pay2_at, broadcastTo_a1_ab_apply]

/-- The stored value from the two head outputs and the gate's argument, entry by entry. -/
theorem pay1_at (v30 v32 v37 : FVec Ideal S512x512 .f32) (j : S512x512.Idx) :
    k0_pay1 (F := Ideal) v30 v32 v37 j
      = v30 j * (cOne - Ideal.logistic (v37 j)) + Ideal.logistic (v37 j) * v32 j := by
  unfold k0_pay1
  simp only [ValueIdx.addf_apply, ValueIdx.mulf_apply, ValueIdx.subf_apply, ValueIdx.broadcast_apply, logistic,
    Ideal.logistic_def, Ideal.ofBits_def]

/-- WHAT THE BODY STORES at row `p`, entry `e` of its block: the gate of the four heads' columns. -/
theorem pay_at :
    k0_pay1 (F := Ideal) (k0_pay3 x0 x1 x3 x4 x5 x6 x7) (k0_pay4 x0 x1 x3 x4 x5 x6 x7) (k0_pay5 x0 x1 x2 x3 x4 x5 x6 x7) (ix2 p e)
      = mix (headB x0 x1 x3 x4 x5 x6 x7 p (col0 e)) (headB x0 x1 x3 x4 x5 x6 x7 p (col1 e))
          (headB x0 x1 x3 x4 x5 x6 x7 p (col2 e)) (headB x0 x1 x3 x4 x5 x6 x7 p (col3 e)) (x2 (ix2 p (0 : Fin 1))) := by
  rw [pay1_at, pay3_at, pay4_at, pay5_at]
  rfl

/-! ## From the blocks' weights to the original weights -/

variable (Wb : Fin 1024 → Fin 768 → EReal) (bb : Fin 1024 → EReal)

/-- When the two weight blocks are the two column ranges of `Wb` transposed and the bias block is `bb`, the blocks'
    hidden unit is the specification's, on the block's row. -/
theorem hidB_eq (h3 : ∀ (j : Fin 256) (k : Fin 1024), x3 (ix2 j k) = Wb k (colL j))
    (h4 : ∀ (j : Fin 512) (k : Fin 1024), x4 (ix2 j k) = Wb k (colR j))
    (h5 : ∀ k : Fin 1024, x5 (ix2 (0 : Fin 1) k) = bb k) (k : Fin 1024) :
    hidB x0 x1 x3 x4 x5 p k = hiddenUnit (fun j => x0 (ix2 p j)) (fun j => x1 (ix2 p j)) Wb bb k := by
  unfold hidB hiddenUnit
  simp only [h3, h4, h5]

/-- A column of the fused product that holds head `(W, b)`'s entry `e` is that head's entry. -/
theorem headB_eq (h3 : ∀ (j : Fin 256) (k : Fin 1024), x3 (ix2 j k) = Wb k (colL j))
    (h4 : ∀ (j : Fin 512) (k : Fin 1024), x4 (ix2 j k) = Wb k (colR j))
    (h5 : ∀ k : Fin 1024, x5 (ix2 (0 : Fin 1) k) = bb k)
    (W : Fin 512 → Fin 1024 → EReal) (b : Fin 512 → EReal) (c : Fin 2048)
    (hW : ∀ k : Fin 1024, x6 (ix2 k c) = W e k) (hb : x7 (ix2 (0 : Fin 1) c) = b e) :
    headB x0 x1 x3 x4 x5 x6 x7 p c
      = head (hiddenUnit (fun j => x0 (ix2 p j)) (fun j => x1 (ix2 p j)) Wb bb) W b e := by
  unfold headB head
  simp only [hidB_eq x0 x1 x3 x4 x5 p Wb bb h3 h4 h5, hW, hb]

/-- THE STORED ENTRY IS THE SPECIFICATION'S: with the weight blocks as above and the four heads side by side in
    `x6`, `x7`, row `p`, entry `e` of what the body stores is `rowCell` of the block's rows. -/
theorem block_cell
    (W1 : Fin 512 → Fin 1024 → EReal) (b1 : Fin 512 → EReal) (W2 : Fin 512 → Fin 1024 → EReal) (b2 : Fin 512 → EReal)
    (Wa : Fin 512 → Fin 1024 → EReal) (ba : Fin 512 → EReal) (Wt : Fin 512 → Fin 1024 → EReal) (bt : Fin 512 → EReal)
    (h3 : ∀ (j : Fin 256) (k : Fin 1024), x3 (ix2 j k) = Wb k (colL j))
    (h4 : ∀ (j : Fin 512) (k : Fin 1024), x4 (ix2 j k) = Wb k (colR j))
    (h5 : ∀ k : Fin 1024, x5 (ix2 (0 : Fin 1) k) = bb k)
    (h60 : ∀ (k : Fin 1024) (e : Fin 512), x6 (ix2 k (col0 e)) = W1 e k)
    (h61 : ∀ (k : Fin 1024) (e : Fin 512), x6 (ix2 k (col1 e)) = W2 e k)
    (h62 : ∀ (k : Fin 1024) (e : Fin 512), x6 (ix2 k (col2 e)) = Wa e k)
    (h63 : ∀ (k : Fin 1024) (e : Fin 512), x6 (ix2 k (col3 e)) = Wt e k)
    (h70 : ∀ e : Fin 512, x7 (ix2 (0 : Fin 1) (col0 e)) = b1 e)
    (h71 : ∀ e : Fin 512, x7 (ix2 (0 : Fin 1) (col1 e)) = b2 e)
    (h72 : ∀ e : Fin 512, x7 (ix2 (0 : Fin 1) (col2 e)) = ba e)
    (h73 : ∀ e : Fin 512, x7 (ix2 (0 : Fin 1) (col3 e)) = bt e) :
    k0_pay1 (F := Ideal) (k0_pay3 x0 x1 x3 x4 x5 x6 x7) (k0_pay4 x0 x1 x3 x4 x5 x6 x7) (k0_pay5 x0 x1 x2 x3 x4 x5 x6 x7) (ix2 p e)
      = rowCell (fun j => x0 (ix2 p j)) (fun j => x1 (ix2 p j)) (x2 (ix2 p (0 : Fin 1)))
          Wb bb W1 b1 W2 b2 Wa ba Wt bt e := by
  rw [pay_at,
    headB_eq x0 x1 x3 x4 x5 x6 x7 p e Wb bb h3 h4 h5 W1 b1 (col0 e) (fun k => h60 k e) (h70 e),
    headB_eq x0 x1 x3 x4 x5 x6 x7 p e Wb bb h3 h4 h5 W2 b2 (col1 e) (fun k => h61 k e) (h71 e),
    headB_eq x0 x1 x3 x4 x5 x6 x7 p e Wb bb h3 h4 h5 Wa ba (col2 e) (fun k => h62 k e) (h72 e),
    headB_eq x0 x1 x3 x4 x5 x6 x7 p e Wb bb h3 h4 h5 Wt bt (col3 e) (fun k => h63 k e) (h73 e)]
  rfl

end

end Cert.KernelIdeal.Payload

end
-- ==== Proof.LibConcatCols.lean ====
/-
  Matrices with the same number of rows laid side by side, read at an index.

  For `x₁ : [n, a]` and `x₂ : [n, b]` joined along the columns into `[n, c]` (`c = a + b`):

  * `concat_cols_left`: at `(r, k)` with `k < a` the joined array is `x₁ (r, k)`;
  * `concat_cols_right`: at `(r, a + k)` with `k < b` it is `x₂ (r, k)`.

  The same for four and for five matrices side by side (`concat4_cols_p`, `concat5_cols_p`): piece `p` starts at the
  sum of the extents before it.
-/
import Idealize.ShloMosaic.Lib.ValueIdx
import Idealize.ShloMosaic.Lib.Pipeline.Value

noncomputable section

namespace Cert.Proof.ConcatCols

open Idealize.ShloMosaic Idealize.ShloMosaic.ValueIdx

variable {α : Type}

/-- A column of the left piece. -/
theorem concat_cols_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (k : Fin a) (hk : k.val < c) :
    concatenate ⟨2, ![n, c]⟩ (1 : Fin 2) [⟨⟨2, ![n, a]⟩, x₁⟩, ⟨⟨2, ![n, b]⟩, x₂⟩] h (ix2 r ⟨k.val, hk⟩) = x₁ (ix2 r k) :=
  concatenate_pair_apply_left (1 : Fin 2) x₁ x₂ h (ix2 r ⟨k.val, hk⟩) rfl (ix2 r k) (fun bx => by
    match bx with
    | ⟨0, _⟩ => rfl
    | ⟨1, _⟩ => rfl)

/-- A column of the right piece. -/
theorem concat_cols_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (k : Fin b) (hk : a + k.val < c) :
    concatenate ⟨2, ![n, c]⟩ (1 : Fin 2) [⟨⟨2, ![n, a]⟩, x₁⟩, ⟨⟨2, ![n, b]⟩, x₂⟩] h (ix2 r ⟨a + k.val, hk⟩) = x₂ (ix2 r k) :=
  concatenate_pair_apply_right (1 : Fin 2) x₁ x₂ h (ix2 r ⟨a + k.val, hk⟩) rfl rfl (ix2 r k) (fun bx hb => by
    match bx with
    | ⟨0, _⟩ => rfl
    | ⟨1, _⟩ => exact absurd rfl hb)
    (by show k.val + a = a + k.val; omega)

/-! ## Four and five pieces -/

/-- Piece 0 of 4 laid side by side: at `(r, k)` the joined array is piece 0 at `(r, k)`. -/
theorem concat4_cols_0 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a0) (hk : k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨k.val, hk⟩) = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨k.val, hk⟩) 0 (by simp) ⟨2, ![n, a0]⟩ x0 rfl rfl (0)
    (by simp <;> omega) (ix2 r k) (fun bx hb => by
      match bx with
      | ⟨0, _⟩ => rfl
      | ⟨1, _⟩ => exact absurd rfl hb) (Nat.zero_add _)

/-- Piece 1 of 4 laid side by side: at `(r, a0 + k)` the joined array is piece 1 at `(r, k)`. -/
theorem concat4_cols_1 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a1) (hk : a0 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + k.val, hk⟩) = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + k.val, hk⟩) 1 (by simp) ⟨2, ![n, a1]⟩ x1 rfl rfl (a0)
    (by simp <;> omega) (ix2 r k) (fun bx hb => by
      match bx with
      | ⟨0, _⟩ => rfl
      | ⟨1, _⟩ => exact absurd rfl hb) rfl

/-- Piece 2 of 4 laid side by side: at `(r, a0 + a1 + k)` the joined array is piece 2 at `(r, k)`. -/
theorem concat4_cols_2 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a2) (hk : a0 + a1 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + k.val, hk⟩) = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + k.val, hk⟩) 2 (by simp) ⟨2, ![n, a2]⟩ x2 rfl rfl (a0 + a1)
    (by simp <;> omega) (ix2 r k) (fun bx hb => by
      match bx with
      | ⟨0, _⟩ => rfl
      | ⟨1, _⟩ => exact absurd rfl hb) rfl

/-- Piece 3 of 4 laid side by side: at `(r, a0 + a1 + a2 + k)` the joined array is piece 3 at `(r, k)`. -/
theorem concat4_cols_3 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a3) (hk : a0 + a1 + a2 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + a2 + k.val, hk⟩) = x3 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + a2 + k.val, hk⟩) 3 (by simp) ⟨2, ![n, a3]⟩ x3 rfl rfl (a0 + a1 + a2)
    (by simp <;> omega) (ix2 r k) (fun bx hb => by
      match bx with
      | ⟨0, _⟩ => rfl
      | ⟨1, _⟩ => exact absurd rfl hb) rfl

/-- Piece 0 of 5 laid side by side: at `(r, k)` the joined array is piece 0 at `(r, k)`. -/
theorem concat5_cols_0 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a0) (hk : k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨k.val, hk⟩) = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨k.val, hk⟩) 0 (by simp) ⟨2, ![n, a0]⟩ x0 rfl rfl (0)
    (by simp <;> omega) (ix2 r k) (fun bx hb => by
      match bx with
      | ⟨0, _⟩ => rfl
      | ⟨1, _⟩ => exact absurd rfl hb) (Nat.zero_add _)

/-- Piece 1 of 5 laid side by side: at `(r, a0 + k)` the joined array is piece 1 at `(r, k)`. -/
theorem concat5_cols_1 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a1) (hk : a0 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + k.val, hk⟩) = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + k.val, hk⟩) 1 (by simp) ⟨2, ![n, a1]⟩ x1 rfl rfl (a0)
    (by simp <;> omega) (ix2 r k) (fun bx hb => by
      match bx with
      | ⟨0, _⟩ => rfl
      | ⟨1, _⟩ => exact absurd rfl hb) rfl

/-- Piece 2 of 5 laid side by side: at `(r, a0 + a1 + k)` the joined array is piece 2 at `(r, k)`. -/
theorem concat5_cols_2 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a2) (hk : a0 + a1 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + k.val, hk⟩) = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + k.val, hk⟩) 2 (by simp) ⟨2, ![n, a2]⟩ x2 rfl rfl (a0 + a1)
    (by simp <;> omega) (ix2 r k) (fun bx hb => by
      match bx with
      | ⟨0, _⟩ => rfl
      | ⟨1, _⟩ => exact absurd rfl hb) rfl

/-- Piece 3 of 5 laid side by side: at `(r, a0 + a1 + a2 + k)` the joined array is piece 3 at `(r, k)`. -/
theorem concat5_cols_3 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a3) (hk : a0 + a1 + a2 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + k.val, hk⟩) = x3 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + k.val, hk⟩) 3 (by simp) ⟨2, ![n, a3]⟩ x3 rfl rfl (a0 + a1 + a2)
    (by simp <;> omega) (ix2 r k) (fun bx hb => by
      match bx with
      | ⟨0, _⟩ => rfl
      | ⟨1, _⟩ => exact absurd rfl hb) rfl

/-- Piece 4 of 5 laid side by side: at `(r, a0 + a1 + a2 + a3 + k)` the joined array is piece 4 at `(r, k)`. -/
theorem concat5_cols_4 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a4) (hk : a0 + a1 + a2 + a3 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + a3 + k.val, hk⟩) = x4 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + a3 + k.val, hk⟩) 4 (by simp) ⟨2, ![n, a4]⟩ x4 rfl rfl (a0 + a1 + a2 + a3)
    (by simp <;> omega) (ix2 r k) (fun bx hb => by
      match bx with
      | ⟨0, _⟩ => rfl
      | ⟨1, _⟩ => exact absurd rfl hb) rfl

end Cert.Proof.ConcatCols

end
-- ==== Proof.EntryWeights.lean ====
/-
  The weights as the region finds them.

  Before the region the host lays the weights out for the kernel: the backbone weights' first 256 and last 512
  columns, each transposed; the bias as one row; the four heads' weights transposed and laid side by side; their
  biases, each as one row, laid side by side. Rounding to bf16 is the identity on the extended reals. Read at an
  index, each laid-out array is one entry of one argument array: `(j, k)` of the input part is `Wb (k, j)`, of the
  hidden part `Wb (k, 256 + j)`; column `q · 512 + e` of the fused heads at row `k` is head `q`'s `W (e, k)`, and of
  the fused biases head `q`'s `b e`.
-/
import proofs.«121057_j5669356836202_2_alg».proof.Proof.FrameIdeal
import proofs.«121057_j5669356836202_2_alg».proof.Proof.CfcSpec
import proofs.«121057_j5669356836202_2_alg».proof.Proof.KernelPayload
import proofs.«121057_j5669356836202_2_alg».proof.Proof.LibConcatCols
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Entry

open Cert.KernelIdeal Cert.KernelIdeal.Gen Cert.KernelIdeal.Hand Cert.KernelIdeal.Payload
open Idealize.ShloMosaic Idealize.ShloMosaic.TcCoe Idealize.ShloMosaic.ValueIdx Idealize.ShloMosaic.StableHlo
open Idealize.SL.Sem Cert.Proof.Cfc

variable (m : (ℓ : Loc nD τ sig) → Buf (Elt Ideal) ℓ) (c : Dev nD)

/-! ## Each laid-out array as a term of the argument arrays -/

theorem V_v2_term : (V m c main_v2 : S256x1024.Idx → EReal)
    = transpose S256x1024 [1, 0] (extractStridedSlice S1024x256 ![0, 0] (m ((c : Thread nD τ).loc main_arg3)) slices_S1024x768_S1024x256_0_0) transposes_S1024x256_S256x1024_1_0 := by
  dsimp only [V, hostOps0]; after_results <;> rfl

theorem V_v5_term : (V m c main_v5 : S512x1024.Idx → EReal)
    = transpose S512x1024 [1, 0] (extractStridedSlice S1024x512 ![0, 256] (m ((c : Thread nD τ).loc main_arg3)) slices_S1024x768_S1024x512_0_256) transposes_S1024x512_S512x1024_1_0 := by
  dsimp only [V, hostOps0]; after_results <;> rfl

theorem V_v17_term : (V m c main_v17 : S1x1024.Idx → EReal)
    = shapeCast S1x1024 (m ((c : Thread nD τ).loc main_arg4)) shapeCasts_S1024_S1x1024 := by
  dsimp only [V, hostOps0]; after_results <;> rfl

theorem V_v11_term : (V m c main_v11 : S1024x2048.Idx → EReal)
    = concatenate S1024x2048 1
        [⟨S1024x512, transpose S1024x512 [1, 0] (m ((c : Thread nD τ).loc main_arg5)) transposes_S512x1024_S1024x512_1_0⟩,
         ⟨S1024x512, transpose S1024x512 [1, 0] (m ((c : Thread nD τ).loc main_arg7)) transposes_S512x1024_S1024x512_1_0⟩,
         ⟨S1024x512, transpose S1024x512 [1, 0] (m ((c : Thread nD τ).loc main_arg9)) transposes_S512x1024_S1024x512_1_0⟩,
         ⟨S1024x512, transpose S1024x512 [1, 0] (m ((c : Thread nD τ).loc main_arg11)) transposes_S512x1024_S1024x512_1_0⟩]
        concatenates_S1024x512_S1024x512_S1024x512_S1024x512_S1024x2048_d1 := by
  dsimp only [V, hostOps0]; after_results <;> rfl

theorem V_v16_term : (V m c main_v16 : S1x2048.Idx → EReal)
    = concatenate S1x2048 1
        [⟨S1x512, shapeCast S1x512 (m ((c : Thread nD τ).loc main_arg6)) shapeCasts_S512_S1x512⟩,
         ⟨S1x512, shapeCast S1x512 (m ((c : Thread nD τ).loc main_arg8)) shapeCasts_S512_S1x512⟩,
         ⟨S1x512, shapeCast S1x512 (m ((c : Thread nD τ).loc main_arg10)) shapeCasts_S512_S1x512⟩,
         ⟨S1x512, shapeCast S1x512 (m ((c : Thread nD τ).loc main_arg12)) shapeCasts_S512_S1x512⟩]
        concatenates_S1x512_S1x512_S1x512_S1x512_S1x2048_d1 := by
  dsimp only [V, hostOps0]; after_results <;> rfl

/-! ## Each laid-out array read at an index -/

/-- The input part of the transposed backbone weights at `(j, k)` is `Wb (k, j)`. -/
theorem V_v2_at (j : Fin 256) (k : Fin 1024) :
    V m c main_v2 (ix2 j k) = m ((c : Thread nD τ).loc main_arg3) (ix2 k (colL j)) :=
  (congrFun (V_v2_term m c) (ix2 j k)).trans
    ((transpose_ix2_apply _ transposes_S1024x256_S256x1024_1_0 j k).trans
      (slice2_axis1_apply 0 _ slices_S1024x768_S1024x256_0_0 k j (colL j) (Nat.zero_add _).symm))

/-- The hidden part of the transposed backbone weights at `(j, k)` is `Wb (k, 256 + j)`. -/
theorem V_v5_at (j : Fin 512) (k : Fin 1024) :
    V m c main_v5 (ix2 j k) = m ((c : Thread nD τ).loc main_arg3) (ix2 k (colR j)) :=
  (congrFun (V_v5_term m c) (ix2 j k)).trans
    ((transpose_ix2_apply _ transposes_S1024x512_S512x1024_1_0 j k).trans
      (slice2_axis1_apply 256 _ slices_S1024x768_S1024x512_0_256 k j (colR j) rfl))

/-- The backbone bias as one row, at `(0, k)`, is `bb k`. -/
theorem V_v17_at (k : Fin 1024) :
    V m c main_v17 (ix2 (0 : Fin 1) k) = m ((c : Thread nD τ).loc main_arg4) (ix1 k) :=
  (congrFun (V_v17_term m c) (ix2 (0 : Fin 1) k)).trans (shapeCast_a_1a_apply _ shapeCasts_S1024_S1x1024 0 k)

/-- Column `e` of the fused heads' weights at row `k` is head 0's `W (e, k)`. -/
theorem V_v11_at0 (k : Fin 1024) (e : Fin 512) :
    V m c main_v11 (ix2 k (col0 e)) = m ((c : Thread nD τ).loc main_arg5) (ix2 e k) :=
  (congrFun (V_v11_term m c) (ix2 k (col0 e))).trans
    ((Cert.Proof.ConcatCols.concat4_cols_0 _ _ _ _ concatenates_S1024x512_S1024x512_S1024x512_S1024x512_S1024x2048_d1 k e _).trans
      (transpose_ix2_apply _ transposes_S512x1024_S1024x512_1_0 k e))

/-- Column `e` of the fused biases is head 0's `b e`. -/
theorem V_v16_at0 (e : Fin 512) :
    V m c main_v16 (ix2 (0 : Fin 1) (col0 e)) = m ((c : Thread nD τ).loc main_arg6) (ix1 e) :=
  (congrFun (V_v16_term m c) (ix2 (0 : Fin 1) (col0 e))).trans
    ((Cert.Proof.ConcatCols.concat4_cols_0 _ _ _ _ concatenates_S1x512_S1x512_S1x512_S1x512_S1x2048_d1 (0 : Fin 1) e _).trans
      (shapeCast_a_1a_apply _ shapeCasts_S512_S1x512 0 e))

/-- Column `512 + e` of the fused heads' weights at row `k` is head 1's `W (e, k)`. -/
theorem V_v11_at1 (k : Fin 1024) (e : Fin 512) :
    V m c main_v11 (ix2 k (col1 e)) = m ((c : Thread nD τ).loc main_arg7) (ix2 e k) :=
  (congrFun (V_v11_term m c) (ix2 k (col1 e))).trans
    ((Cert.Proof.ConcatCols.concat4_cols_1 _ _ _ _ concatenates_S1024x512_S1024x512_S1024x512_S1024x512_S1024x2048_d1 k e _).trans
      (transpose_ix2_apply _ transposes_S512x1024_S1024x512_1_0 k e))

/-- Column `512 + e` of the fused biases is head 1's `b e`. -/
theorem V_v16_at1 (e : Fin 512) :
    V m c main_v16 (ix2 (0 : Fin 1) (col1 e)) = m ((c : Thread nD τ).loc main_arg8) (ix1 e) :=
  (congrFun (V_v16_term m c) (ix2 (0 : Fin 1) (col1 e))).trans
    ((Cert.Proof.ConcatCols.concat4_cols_1 _ _ _ _ concatenates_S1x512_S1x512_S1x512_S1x512_S1x2048_d1 (0 : Fin 1) e _).trans
      (shapeCast_a_1a_apply _ shapeCasts_S512_S1x512 0 e))

/-- Column `1024 + e` of the fused heads' weights at row `k` is head 2's `W (e, k)`. -/
theorem V_v11_at2 (k : Fin 1024) (e : Fin 512) :
    V m c main_v11 (ix2 k (col2 e)) = m ((c : Thread nD τ).loc main_arg9) (ix2 e k) :=
  (congrFun (V_v11_term m c) (ix2 k (col2 e))).trans
    ((Cert.Proof.ConcatCols.concat4_cols_2 _ _ _ _ concatenates_S1024x512_S1024x512_S1024x512_S1024x512_S1024x2048_d1 k e _).trans
      (transpose_ix2_apply _ transposes_S512x1024_S1024x512_1_0 k e))

/-- Column `1024 + e` of the fused biases is head 2's `b e`. -/
theorem V_v16_at2 (e : Fin 512) :
    V m c main_v16 (ix2 (0 : Fin 1) (col2 e)) = m ((c : Thread nD τ).loc main_arg10) (ix1 e) :=
  (congrFun (V_v16_term m c) (ix2 (0 : Fin 1) (col2 e))).trans
    ((Cert.Proof.ConcatCols.concat4_cols_2 _ _ _ _ concatenates_S1x512_S1x512_S1x512_S1x512_S1x2048_d1 (0 : Fin 1) e _).trans
      (shapeCast_a_1a_apply _ shapeCasts_S512_S1x512 0 e))

/-- Column `1536 + e` of the fused heads' weights at row `k` is head 3's `W (e, k)`. -/
theorem V_v11_at3 (k : Fin 1024) (e : Fin 512) :
    V m c main_v11 (ix2 k (col3 e)) = m ((c : Thread nD τ).loc main_arg11) (ix2 e k) :=
  (congrFun (V_v11_term m c) (ix2 k (col3 e))).trans
    ((Cert.Proof.ConcatCols.concat4_cols_3 _ _ _ _ concatenates_S1024x512_S1024x512_S1024x512_S1024x512_S1024x2048_d1 k e _).trans
      (transpose_ix2_apply _ transposes_S512x1024_S1024x512_1_0 k e))

/-- Column `1536 + e` of the fused biases is head 3's `b e`. -/
theorem V_v16_at3 (e : Fin 512) :
    V m c main_v16 (ix2 (0 : Fin 1) (col3 e)) = m ((c : Thread nD τ).loc main_arg12) (ix1 e) :=
  (congrFun (V_v16_term m c) (ix2 (0 : Fin 1) (col3 e))).trans
    ((Cert.Proof.ConcatCols.concat4_cols_3 _ _ _ _ concatenates_S1x512_S1x512_S1x512_S1x512_S1x2048_d1 (0 : Fin 1) e _).trans
      (shapeCast_a_1a_apply _ shapeCasts_S512_S1x512 0 e))

end Cert.KernelIdeal.Entry

end
-- ==== Proof.KernelResult.lean ====
/-
  The kernel's result array.

  The grid has 32 points; point `t` holds rows `512 t … 512 t + 511` of the input features, the hidden features and
  the time steps, and the whole of each laid-out weight array, and writes back rows `512 t … 512 t + 511` of the
  result. What it writes at row `p`, entry `e` of its block is the specification's entry `e` on row `512 t + p`:
  the body's stored value read at an index, over the blocks read where they lie in their arrays. Every row
  `r` of the result lies in the block of point `r / 512`, so after the run the array is the specification's function
  of the argument arrays as launched, and the argument arrays are unchanged.
-/
import proofs.«121057_j5669356836202_2_alg».proof.Proof.FrameIdeal
import proofs.«121057_j5669356836202_2_alg».proof.Proof.KernelPayload
import proofs.«121057_j5669356836202_2_alg».proof.Proof.EntryWeights
import proofs.«121057_j5669356836202_2_alg».proof.Proof.CfcSpec
import Idealize.ShloMosaic.Lib.Pipeline.Value

set_option maxRecDepth 16384

noncomputable section

namespace Cert.KernelIdeal.Result

open Cert.KernelIdeal Cert.KernelIdeal.Gen Cert.KernelIdeal.Hand Cert.KernelIdeal.Payload Cert.KernelIdeal.Entry
open Idealize.ShloMosaic Idealize.ShloMosaic.TcCoe Idealize.ShloMosaic.ValueIdx Idealize.SL.Sem Cert.Proof.Cfc
open Idealize.ShloMosaic.Pipeline (Dat)

variable (m : (ℓ : Loc nD τ sig) → Buf (Elt Ideal) ℓ) (ρ : Dev nD → PrngReg)

/-- The specification's result array of the thirteen argument arrays as launched. -/
def Gm (c : Dev nD) : S16384x512.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem hz : (![0, 0] : Fin 2 → Nat) = fun _ => 0 := funext fun a => by fin_cases a <;> rfl

/-! ## The block indices, decided over the 32 points -/

/-- The row windows (input features, hidden features, time steps, result) are at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0 :=
  (by decide +kernel : ∀ t : Fin grid0.N, _)

/-- The weight windows are whole arrays: block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The blocks read where they lie -/

/-- Row `p` of point `t`'s block of the input features is row `512 t + p` of the array as launched. -/
theorem iblk0_at (c : Dev nD) (t : Fin cfg0.N) (p : Fin 512) (j : Fin 256) (R : Fin 16384) (hR : R.val = t.val * 512 + p.val) :
    iblk m c 0 t (ix2 p j) = m ((c : Thread nD τ).loc main_arg0) (ix2 R j) := by
  obtain ⟨h0, h1, -⟩ := idx_rows t
  unfold iblk
  show V m c main_arg0 (((cfg0.win 0).blk t).view.emb (ix2 p j)) = _
  rw [V_main_arg0]
  refine congrArg _ (funext fun a => Fin.ext ?_)
  match a with
  | ⟨0, _⟩ => show win0_0.index t (0 : Fin 2) * 512 + 1 * p.val = R.val; omega
  | ⟨1, _⟩ => show win0_0.index t (1 : Fin 2) * 256 + 1 * j.val = j.val; omega

/-- The same for the hidden features. -/
theorem iblk1_at (c : Dev nD) (t : Fin cfg0.N) (p : Fin 512) (j : Fin 512) (R : Fin 16384) (hR : R.val = t.val * 512 + p.val) :
    iblk m c 1 t (ix2 p j) = m ((c : Thread nD τ).loc main_arg1) (ix2 R j) := by
  obtain ⟨-, -, h0, h1, -⟩ := idx_rows t
  unfold iblk
  show V m c main_arg1 (((cfg0.win 1).blk t).view.emb (ix2 p j)) = _
  rw [V_main_arg1]
  refine congrArg _ (funext fun a => Fin.ext ?_)
  match a with
  | ⟨0, _⟩ => show win0_1.index t (0 : Fin 2) * 512 + 1 * p.val = R.val; omega
  | ⟨1, _⟩ => show win0_1.index t (1 : Fin 2) * 512 + 1 * j.val = j.val; omega

/-- The same for the column of time steps. -/
theorem iblk2_at (c : Dev nD) (t : Fin cfg0.N) (p : Fin 512) (j : Fin 1) (R : Fin 16384) (hR : R.val = t.val * 512 + p.val) :
    iblk m c 2 t (ix2 p j) = m ((c : Thread nD τ).loc main_arg2) (ix2 R j) := by
  obtain ⟨-, -, -, -, h0, h1, -⟩ := idx_rows t
  unfold iblk
  show V m c main_arg2 (((cfg0.win 2).blk t).view.emb (ix2 p j)) = _
  rw [V_main_arg2]
  refine congrArg _ (funext fun a => Fin.ext ?_)
  match a with
  | ⟨0, _⟩ => show win0_2.index t (0 : Fin 2) * 512 + 1 * p.val = R.val; omega
  | ⟨1, _⟩ => show win0_2.index t (1 : Fin 2) * 1 + 1 * j.val = j.val; omega

/-- Row `p`, entry `e` of point `t`'s block of the result is `(512 t + p, e)` of the array. -/
theorem emb8 (t : Fin cfg0.N) (p e : Fin 512) (R : Fin 16384) (hR : R.val = t.val * 512 + p.val) :
    ((cfg0.win 8).blk t).view.emb (ix2 p e) = ix2 R e := by
  obtain ⟨-, -, -, -, -, -, h0, h1⟩ := idx_rows t
  refine funext fun a => Fin.ext ?_
  match a with
  | ⟨0, _⟩ => show win0_8.index t (0 : Fin 2) * 512 + 1 * p.val = R.val; omega
  | ⟨1, _⟩ => show win0_8.index t (1 : Fin 2) * 512 + 1 * e.val = e.val; omega

/-- Window 3's block is its whole array as the region finds it. -/
theorem iblk3_at (c : Dev nD) (t : Fin cfg0.N) (y : S256x1024.Idx) : iblk m c 3 t y = V m c main_v2 y := by
  obtain ⟨h0, h1, -⟩ := idx_whole t
  unfold iblk
  show V m c main_v2 (((cfg0.win 3).blk t).view.emb y) = V m c main_v2 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1024 + 1 * (y 1).val = (y 1).val; omega

/-- Window 4's block is its whole array as the region finds it. -/
theorem iblk4_at (c : Dev nD) (t : Fin cfg0.N) (y : S512x1024.Idx) : iblk m c 4 t y = V m c main_v5 y := by
  obtain ⟨-, -, h0, h1, -⟩ := idx_whole t
  unfold iblk
  show V m c main_v5 (((cfg0.win 4).blk t).view.emb y) = V m c main_v5 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 1024 + 1 * (y 1).val = (y 1).val; omega

/-- Window 5's block is its whole array as the region finds it. -/
theorem iblk5_at (c : Dev nD) (t : Fin cfg0.N) (y : S1x1024.Idx) : iblk m c 5 t y = V m c main_v17 y := by
  obtain ⟨-, -, -, -, h0, h1, -⟩ := idx_whole t
  unfold iblk
  show V m c main_v17 (((cfg0.win 5).blk t).view.emb y) = V m c main_v17 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-- Window 6's block is its whole array as the region finds it. -/
theorem iblk6_at (c : Dev nD) (t : Fin cfg0.N) (y : S1024x2048.Idx) : iblk m c 6 t y = V m c main_v11 y := by
  obtain ⟨-, -, -, -, -, -, h0, h1, -⟩ := idx_whole t
  unfold iblk
  show V m c main_v11 (((cfg0.win 6).blk t).view.emb y) = V m c main_v11 y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 2048 + 1 * (y 1).val = (y 1).val; omega

/-- Window 7's block is its whole array as the region finds it. -/
theorem iblk7_at (c : Dev nD) (t : Fin cfg0.N) (y : S1x2048.Idx) : iblk m c 7 t y = V m c main_v16 y := by
  obtain ⟨-, -, -, -, -, -, -, -, h0, h1⟩ := idx_whole t
  unfold iblk
  show V m c main_v16 (((cfg0.win 7).blk t).view.emb y) = V m c main_v16 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 2048 + 1 * (y 1).val = (y 1).val; omega

/-! ## What a point writes back -/

/-- THE STORED ENTRY at row `p`, entry `e` of point `t`'s block is the specification's entry `(512 t + p, e)`. -/
theorem out_block (c : Dev nD) (t : Fin cfg0.N) (p e : Fin 512) (R : Fin 16384) (hR : R.val = t.val * 512 + p.val) :
    k0_pay1 (F := Ideal) (k0_pay3 (iblk m c 0 t) (iblk m c 1 t) (iblk m c 3 t) (iblk m c 4 t) (iblk m c 5 t) (iblk m c 6 t) (iblk m c 7 t)) (k0_pay4 (iblk m c 0 t) (iblk m c 1 t) (iblk m c 3 t) (iblk m c 4 t) (iblk m c 5 t) (iblk m c 6 t) (iblk m c 7 t)) (k0_pay5 (iblk m c 0 t) (iblk m c 1 t) (iblk m c 2 t) (iblk m c 3 t) (iblk m c 4 t) (iblk m c 5 t) (iblk m c 6 t) (iblk m c 7 t)) (ix2 p e)
      = Gm m c (ix2 R e) := by
  refine (block_cell (iblk m c 0 t) (iblk m c 1 t) (iblk m c 2 t) (iblk m c 3 t) (iblk m c 4 t) (iblk m c 5 t) (iblk m c 6 t) (iblk m c 7 t) p e
    (fun k j => (m ((c : Thread nD τ).loc main_arg3)) (ix2 k j)) (fun k => (m ((c : Thread nD τ).loc main_arg4)) (ix1 k))
    (fun e k => (m ((c : Thread nD τ).loc main_arg5)) (ix2 e k)) (fun e => (m ((c : Thread nD τ).loc main_arg6)) (ix1 e))
    (fun e k => (m ((c : Thread nD τ).loc main_arg7)) (ix2 e k)) (fun e => (m ((c : Thread nD τ).loc main_arg8)) (ix1 e))
    (fun e k => (m ((c : Thread nD τ).loc main_arg9)) (ix2 e k)) (fun e => (m ((c : Thread nD τ).loc main_arg10)) (ix1 e))
    (fun e k => (m ((c : Thread nD τ).loc main_arg11)) (ix2 e k)) (fun e => (m ((c : Thread nD τ).loc main_arg12)) (ix1 e))
    (fun j k => (iblk3_at m c t _).trans (V_v2_at m c j k))
    (fun j k => (iblk4_at m c t _).trans (V_v5_at m c j k))
    (fun k => (iblk5_at m c t _).trans (V_v17_at m c k))
    (fun k e => (iblk6_at m c t _).trans (V_v11_at0 m c k e))
    (fun k e => (iblk6_at m c t _).trans (V_v11_at1 m c k e))
    (fun k e => (iblk6_at m c t _).trans (V_v11_at2 m c k e))
    (fun k e => (iblk6_at m c t _).trans (V_v11_at3 m c k e))
    (fun e => (iblk7_at m c t _).trans (V_v16_at0 m c e))
    (fun e => (iblk7_at m c t _).trans (V_v16_at1 m c e))
    (fun e => (iblk7_at m c t _).trans (V_v16_at2 m c e))
    (fun e => (iblk7_at m c t _).trans (V_v16_at3 m c e))).trans ?_
  unfold Gm G
  simp only [iblk0_at m c t p _ R hR, iblk1_at m c t p _ R hR, iblk2_at m c t p _ R hR]

/-- WHAT POINT `t` WRITES BACK is block `t` of the specification's array. -/
theorem flushed8_eq (c : Dev nD) (t : Fin cfg0.N) :
    (dats m 0 c).flushed 8 t = ((cfg0.win 8).blk t).view.read (Elt Ideal) (Gm m c) := by
  show (cfg0.win 8).cut (grid0.coords t) ((dats m 0 c).after 8 t) = _
  rw [after0_8]
  unfold out0_8
  rw [View.canon_unit_zero hz]
  simp only [View.ld_unit_zero (S := S512x256) hz, View.ld_unit_zero (S := S512x512) hz, View.ld_unit_zero (S := S512x1) hz,
    View.ld_unit_zero (S := S256x1024) hz, View.ld_unit_zero (S := S512x1024) hz, View.ld_unit_zero (S := S1x1024) hz,
    View.ld_unit_zero (S := S1024x2048) hz, View.ld_unit_zero (S := S1x2048) hz]
  show (k0_pay1 (F := Ideal) (k0_pay3 (iblk m c 0 t) (iblk m c 1 t) (iblk m c 3 t) (iblk m c 4 t) (iblk m c 5 t) (iblk m c 6 t) (iblk m c 7 t)) (k0_pay4 (iblk m c 0 t) (iblk m c 1 t) (iblk m c 3 t) (iblk m c 4 t) (iblk m c 5 t) (iblk m c 6 t) (iblk m c 7 t)) (k0_pay5 (iblk m c 0 t) (iblk m c 1 t) (iblk m c 2 t) (iblk m c 3 t) (iblk m c 4 t) (iblk m c 5 t) (iblk m c 6 t) (iblk m c 7 t)) : S512x512.Idx → EReal)
    = fun j : S512x512.Idx => Gm m c (((cfg0.win 8).blk t).view.emb j)
  funext j
  obtain ⟨p, e, rfl⟩ : ∃ (p : Fin 512) (e : Fin 512), j = ix2 p e := ⟨j 0, j 1, eq_ix2 j⟩
  have ht : t.val < 32 := Nat.lt_of_lt_of_eq t.isLt N_0
  have hR : t.val * 512 + p.val < 16384 := by have := p.isLt; omega
  rw [emb8 t p e ⟨t.val * 512 + p.val, hR⟩ rfl]
  exact out_block m c t p e ⟨_, hR⟩ rfl

/-! ## The blocks fill the array -/

/-- An index of the array is in point `t`'s block iff each coordinate is in the block's range on its axis. -/
theorem mem_blk8 (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v18).slice (win0_8.rect t)).set ↔ _
  rw [View.set_slice_whole, Rect.mem_set_unit]
  exact Iff.rfl

/-- Row `r` of the result lies in the block of point `r / 512`. -/
theorem cover8 (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  have hq : (i 0).val / 512 < 32 := by omega
  refine ⟨⟨(i 0).val / 512, Nat.lt_of_lt_of_eq hq N_0.symm⟩, flush0_8 _, ?_⟩
  rw [mem_blk8]
  obtain ⟨-, -, -, -, -, -, h0, h1⟩ := idx_rows ⟨(i 0).val / 512, Nat.lt_of_lt_of_eq hq N_0.symm⟩
  have h0' : win0_8.index ⟨(i 0).val / 512, Nat.lt_of_lt_of_eq hq N_0.symm⟩ (0 : Fin 2) = (i 0).val / 512 := h0
  intro a
  match a with
  | ⟨0, _⟩ =>
    show win0_8.index ⟨(i 0).val / 512, Nat.lt_of_lt_of_eq hq N_0.symm⟩ (0 : Fin 2) * 512 ≤ (i 0).val
      ∧ (i 0).val < win0_8.index ⟨(i 0).val / 512, Nat.lt_of_lt_of_eq hq N_0.symm⟩ (0 : Fin 2) * 512 + 512
    omega
  | ⟨1, _⟩ =>
    show win0_8.index ⟨(i 0).val / 512, Nat.lt_of_lt_of_eq hq N_0.symm⟩ (1 : Fin 2) * 512 ≤ (i 1).val
      ∧ (i 1).val < win0_8.index ⟨(i 0).val / 512, Nat.lt_of_lt_of_eq hq N_0.symm⟩ (1 : Fin 2) * 512 + 512
    omega

/-- THE ARRAY after the run is the specification's. -/
theorem final8 (c : Dev nD) : (dats m 0 c).arrAt 8 cfg0.N = Gm m c :=
  (dats m 0 c).arrAt_eq_of_cover 8 (Gm m c) (fun t _ => flushed8_eq m c t) cover8

/-! ## The run, read -/

/-- Every weakly fair execution ends, none faults, the result array ends at the specification's function of the
    argument arrays as launched, and the argument arrays are unchanged. -/
theorem run : θ_run defs (onTc (τ := τ) (main (F := Ideal))) ⟨m, fun _ => 0, ρ⟩ fun r => ∀ c : Dev nD,
      r.2.mem ((c.tc : Thread nD τ).loc main_v18) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.Result

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.RefValue.lean ====
/-
  The reference computes the specification, entry by entry.

  Read one operation at a time, the reference's hidden layer at `(r, k)` is the scaled tanh of a sum over the 768
  joined feature columns — the first 256 read from the input features, the last 512 from the hidden features, against
  row `k` of the backbone weights — plus the bias: the sum splits into its two column ranges. Each head at `(r, e)` is
  the sum over the 1024 hidden units against row `e` of that head's weights plus its bias, and the result is the gate
  of the four heads, the logistic spelt as `1 / (1 + e⁻ˣ)`.
-/
import proofs.«121057_j5669356836202_2_alg».proof.Proof.Gen.ReferenceIdeal.Read
import proofs.«121057_j5669356836202_2_alg».proof.Proof.CfcSpec
import proofs.«121057_j5669356836202_2_alg».proof.Proof.LibConcatAt
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.Proof.Cfc

variable (x0 : (⟨S16384x256, .f32⟩ : BufTy).Contents (Elt Ideal)) (x1 : (⟨S16384x512, .f32⟩ : BufTy).Contents (Elt Ideal))
  (x2 : (⟨S16384x1, .f32⟩ : BufTy).Contents (Elt Ideal)) (x3 : (⟨S1024x768, .f32⟩ : BufTy).Contents (Elt Ideal))
  (x4 : (⟨S1024, .f32⟩ : BufTy).Contents (Elt Ideal))
  (x5 : (⟨S512x1024, .f32⟩ : BufTy).Contents (Elt Ideal)) (x6 : (⟨S512, .f32⟩ : BufTy).Contents (Elt Ideal))
  (x7 : (⟨S512x1024, .f32⟩ : BufTy).Contents (Elt Ideal)) (x8 : (⟨S512, .f32⟩ : BufTy).Contents (Elt Ideal))
  (x9 : (⟨S512x1024, .f32⟩ : BufTy).Contents (Elt Ideal)) (x10 : (⟨S512, .f32⟩ : BufTy).Contents (Elt Ideal))
  (x11 : (⟨S512x1024, .f32⟩ : BufTy).Contents (Elt Ideal)) (x12 : (⟨S512, .f32⟩ : BufTy).Contents (Elt Ideal))

/-- The backbone's contraction over the 768 joined columns is the input part plus the hidden part. -/
theorem backbone_sum (i : S16384x1024.Idx) :
    (∑ kk : Fin 768, (val_main_v0 (F := Ideal) x0 x1) (lidx_main_v2 i kk) * (val_main_v1 (F := Ideal) x3) (ridx_main_v2 i kk))
      = (∑ j : Fin 256, x0 (ix2 (i 0) j) * x3 (ix2 (i 1) (colL j)))
        + (∑ j : Fin 512, x1 (ix2 (i 0) j) * x3 (ix2 (i 1) (colR j))) := by
  refine (sum_768_split _).trans ?_
  refine congrArg₂ (· + ·) (Finset.sum_congr rfl fun j _ => ?_) (Finset.sum_congr rfl fun j _ => ?_)
  · refine congrArg₂ (· * ·) ?_ ?_
    · unfold val_main_v0
      exact Cert.Proof.ConcatAt.pair_left x0 x1 _ (lidx_main_v2 i (colL j)) (i 0) j rfl rfl
    · exact (val_main_v1_apply x3 _).trans (congrArg x3 (idx2_eq _ (i 1) (colL j) rfl rfl))
  · refine congrArg₂ (· * ·) ?_ ?_
    · unfold val_main_v0
      exact Cert.Proof.ConcatAt.pair_right x0 x1 _ (lidx_main_v2 i (colR j)) (i 0) j rfl rfl
    · exact (val_main_v1_apply x3 _).trans (congrArg x3 (idx2_eq _ (i 1) (colR j) rfl rfl))

/-- THE HIDDEN LAYER: the reference's scaled tanh at `(r, k)` is the specification's hidden unit `k` on row `r`. -/
theorem hidden_stage (i : S16384x1024.Idx) :
    val_main_v10 (F := Ideal) x0 x1 x3 x4 i
      = hiddenUnit (fun j => x0 (ix2 (i 0) j)) (fun j => x1 (ix2 (i 0) j)) (fun k j => x3 (ix2 k j)) (fun k => x4 (ix1 k)) (i 1) := by
  rw [val_main_v10_apply, val_main_v9_apply, val_main_cst_0_apply, val_main_v8_apply, val_main_v7_apply,
    val_main_v6_apply, val_main_cst_apply, val_main_v5_apply, val_main_v2_apply, backbone_sum, val_main_v4_apply,
    val_main_v3_apply, idx1_eq (idx_main_v3 (idx_main_v4 i)) (i 1) rfl]
  rfl

/-- A head over the hidden layer: the contraction over the 1024 hidden units against the head's transposed weights,
    plus its bias row. Stated for the sum and the bias read as the reference reads them. -/
theorem head_sum (W : (⟨S512x1024, .f32⟩ : BufTy).Contents (Elt Ideal)) (b : (⟨S512, .f32⟩ : BufTy).Contents (Elt Ideal))
    (i : S16384x512.Idx) (L : Fin 1024 → S16384x1024.Idx) (Wt : Fin 1024 → EReal) (bv : EReal)
    (hL0 : ∀ k, ((L k) 0).val = (i 0).val) (hL1 : ∀ k, ((L k) 1).val = k.val)
    (hW : ∀ k, Wt k = W (ix2 (i 1) k)) (hb : bv = b (ix1 (i 1))) :
    (∑ k : Fin 1024, val_main_v10 (F := Ideal) x0 x1 x3 x4 (L k) * Wt k) + bv
      = head (hiddenUnit (fun j => x0 (ix2 (i 0) j)) (fun j => x1 (ix2 (i 0) j)) (fun k j => x3 (ix2 k j)) (fun k => x4 (ix1 k)))
          (fun e k => W (ix2 e k)) (fun e => b (ix1 e)) (i 1) := by
  unfold head
  refine congrArg₂ (· + ·) (Finset.sum_congr rfl fun k _ => congrArg₂ (· * ·) ?_ (hW k)) hb
  rw [idx2_eq (L k) (i 0) k (hL0 k) (hL1 k)]
  exact hidden_stage x0 x1 x3 x4 (ix2 (i 0) k)

/-- The first head's pre-activation at `(r, e)`. -/
theorem head1_stage (i : S16384x512.Idx) :
    val_main_v15 (F := Ideal) x0 x1 x3 x4 x5 x6 i
      = head (hiddenUnit (fun j => x0 (ix2 (i 0) j)) (fun j => x1 (ix2 (i 0) j)) (fun k j => x3 (ix2 k j)) (fun k => x4 (ix1 k)))
          (fun e k => x5 (ix2 e k)) (fun e => x6 (ix1 e)) (i 1) := by
  rw [val_main_v15_apply, val_main_v12_apply, val_main_v14_apply, val_main_v13_apply]
  exact head_sum x0 x1 x3 x4 x5 x6 i (lidx_main_v12 i) (fun k => val_main_v11 (F := Ideal) x5 (ridx_main_v12 i k)) _
    (fun _ => rfl) (fun _ => rfl)
    (fun k => (val_main_v11_apply x5 _).trans (congrArg x5 (idx2_eq _ (i 1) k rfl rfl)))
    (congrArg x6 (idx1_eq _ (i 1) rfl))

/-- The second head's pre-activation at `(r, e)`. -/
theorem head2_stage (i : S16384x512.Idx) :
    val_main_v21 (F := Ideal) x0 x1 x3 x4 x7 x8 i
      = head (hiddenUnit (fun j => x0 (ix2 (i 0) j)) (fun j => x1 (ix2 (i 0) j)) (fun k j => x3 (ix2 k j)) (fun k => x4 (ix1 k)))
          (fun e k => x7 (ix2 e k)) (fun e => x8 (ix1 e)) (i 1) := by
  rw [val_main_v21_apply, val_main_v18_apply, val_main_v20_apply, val_main_v19_apply]
  exact head_sum x0 x1 x3 x4 x7 x8 i (lidx_main_v18 i) (fun k => val_main_v17 (F := Ideal) x7 (ridx_main_v18 i k)) _
    (fun _ => rfl) (fun _ => rfl)
    (fun k => (val_main_v17_apply x7 _).trans (congrArg x7 (idx2_eq _ (i 1) k rfl rfl)))
    (congrArg x8 (idx1_eq _ (i 1) rfl))

/-- The time scale head at `(r, e)`. -/
theorem headA_stage (i : S16384x512.Idx) :
    val_main_v27 (F := Ideal) x0 x1 x3 x4 x9 x10 i
      = head (hiddenUnit (fun j => x0 (ix2 (i 0) j)) (fun j => x1 (ix2 (i 0) j)) (fun k j => x3 (ix2 k j)) (fun k => x4 (ix1 k)))
          (fun e k => x9 (ix2 e k)) (fun e => x10 (ix1 e)) (i 1) := by
  rw [val_main_v27_apply, val_main_v24_apply, val_main_v26_apply, val_main_v25_apply]
  exact head_sum x0 x1 x3 x4 x9 x10 i (lidx_main_v24 i) (fun k => val_main_v23 (F := Ideal) x9 (ridx_main_v24 i k)) _
    (fun _ => rfl) (fun _ => rfl)
    (fun k => (val_main_v23_apply x9 _).trans (congrArg x9 (idx2_eq _ (i 1) k rfl rfl)))
    (congrArg x10 (idx1_eq _ (i 1) rfl))

/-- The time offset head at `(r, e)`. -/
theorem headT_stage (i : S16384x512.Idx) :
    val_main_v32 (F := Ideal) x0 x1 x3 x4 x11 x12 i
      = head (hiddenUnit (fun j => x0 (ix2 (i 0) j)) (fun j => x1 (ix2 (i 0) j)) (fun k j => x3 (ix2 k j)) (fun k => x4 (ix1 k)))
          (fun e k => x11 (ix2 e k)) (fun e => x12 (ix1 e)) (i 1) := by
  rw [val_main_v32_apply, val_main_v29_apply, val_main_v31_apply, val_main_v30_apply]
  exact head_sum x0 x1 x3 x4 x11 x12 i (lidx_main_v29 i) (fun k => val_main_v28 (F := Ideal) x11 (ridx_main_v29 i k)) _
    (fun _ => rfl) (fun _ => rfl)
    (fun k => (val_main_v28_apply x11 _).trans (congrArg x11 (idx2_eq _ (i 1) k rfl rfl)))
    (congrArg x12 (idx1_eq _ (i 1) rfl))

/-- THE REFERENCE IS THE SPECIFICATION: its result at `(r, e)` is `rowCell` of row `r` of the features and the
    time step, at entry `e`. -/
theorem result_stage (i : S16384x512.Idx) :
    val_main_v46 (F := Ideal) x0 x1 x2 x3 x4 x5 x6 x7 x8 x9 x10 x11 x12 i
      = G x0 x1 x2 x3 x4 x5 x6 x7 x8 x9 x10 x11 x12 i := by
  rw [val_main_v46_apply, val_main_v44_apply, val_main_v45_apply, val_main_v16_apply, val_main_v22_apply,
    val_main_v43_apply, val_main_v42_apply, val_main_cst_3_apply, val_main_v41_apply, val_main_v40_apply,
    val_main_cst_2_apply, val_main_v39_apply, val_main_v38_apply, val_main_cst_1_apply, val_main_v37_apply,
    val_main_v36_apply, val_main_v35_apply, val_main_v34_apply, val_main_v33_apply,
    head1_stage, head2_stage, headA_stage, headT_stage, idx2_eq (idx_main_v33 i) (i 0) (0 : Fin 1) rfl rfl]
  simp only [Ideal.addf_def, Ideal.mulf_def, Ideal.subf_def, Ideal.hostUnary_tanh_def, Ideal.hostUnary_exp_def,
    Ideal.hostNegf_def, Ideal.negf_def, Ideal.hostDivf_def, Ideal.ofBits_def, logistic_spelt]
  rfl

end Cert.ReferenceIdeal.RefValue

end
-- ==== Proof.lean ====
/- The proof of `Cert.Claim`: a closed-form continuous-time cell — a tanh backbone over the joined input and hidden
   features, four linear heads over it, and a logistic gate between two of them driven by the other two and the time
   step — computed by one kernel over 32 blocks of 512 rows against its plain description.

   On the extended reals the two programs are one function of the arguments, entry by entry: the kernel contracts the
   256 input columns and the 512 hidden columns separately where the description contracts the 768 joined columns
   (a finite sum split in two), and it multiplies by the four heads' weights laid side by side and cuts the product
   into four where the description multiplies four times (the same sums, column by column); rounding to bf16 is the
   identity there, and the kernel's logistic is the description's `1 / (1 + e⁻ˣ)`. No entry needs to be finite.
   The three frames — each program runs to the end, faults nowhere and leaves its arguments as launched — are the two
   kernel programs' frame runs and the description's run; the idealized kernel is the kernel's own text, so nothing is
   to be preserved beyond that. -/
import proofs.«121057_j5669356836202_2_alg».proof.Defs
import proofs.«121057_j5669356836202_2_alg».proof.Proof.Gen.Kernel
import proofs.«121057_j5669356836202_2_alg».proof.Proof.Gen.KernelIdeal
import proofs.«121057_j5669356836202_2_alg».proof.Proof.Gen.ReferenceIdeal
import proofs.«121057_j5669356836202_2_alg».proof.Proof.Gen.ReferenceIdeal.Run
import proofs.«121057_j5669356836202_2_alg».proof.Proof.Gen.ReferenceIdeal.Read
import proofs.«121057_j5669356836202_2_alg».proof.Proof.Gen.Pre_finite_inputs
import proofs.«121057_j5669356836202_2_alg».proof.Proof.FrameBits
import proofs.«121057_j5669356836202_2_alg».proof.Proof.FrameIdeal
import proofs.«121057_j5669356836202_2_alg».proof.Proof.KernelResult
import proofs.«121057_j5669356836202_2_alg».proof.Proof.RefValue
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The description's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the arguments the kernel's result array and the description's are the
    specification's function `G` of those arguments, entry by entry. -/
theorem algebraic : Cert.algebraic_KernelIdeal_ReferenceIdeal := by
  intro m ρ m' ρ' _ hagree
  refine ⟨fun c => Cert.KernelIdeal.Result.Gm m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v46_eq, h0, h1, h2, h3, h4, h5, h6, h7, h8, h9, h10, h11, h12]
  exact funext fun i => Cert.ReferenceIdeal.RefValue.result_stage _ _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
